-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S7x7 : Shape := ⟨2, ![7, 7]⟩
abbrev S_ : Shape := ⟨0, ![]⟩

class Facts : Prop where
  bcast_S_S7x7 : S_.BroadcastsInDim S7x7 (![] : Fin 0 → Fin S7x7.rank)
  reducesTo_S7x7_S_d0_1 : S7x7.ReducesTo [0, 1] S_
  h_S_ : 0 < S_.numel

variable [Facts]

def fn_part1 {F : FTy → Type} [FloatOps F] (main_arg4 : FVec F S7x7 .f32) (main_arg5 : FVec F S7x7 .f32) (main_arg6 : FVec F S7x7 .f32) (main_v13 : IVec S_ 1) (main_v16 : IVec S7x7 1) : IVec S_ 1 :=
  let main_c_5 : IVec S_ 1 := constantI S_ 1 1#1
  let main_v17 : IVec S_ 1 := (fun x v => Host.reduce IntOp.andi x v reducesTo_S7x7_S_d0_1 h_S_) main_v16 main_c_5
  let main_v18 : IVec S_ 1 := andi main_v13 main_v17
  let main_v19 : FVec F S7x7 .f32 := Host.absf main_arg4
  let main_cst_6 : FVec F S_ .f32 := constant S_ .f32 0x7F800000#32
  let main_v20 : FVec F S7x7 .f32 := broadcastInDim S7x7 ![] bcast_S_S7x7 main_cst_6
  let main_v21 : IVec S7x7 1 := cmpf .olt main_v19 main_v20
  let main_c_7 : IVec S_ 1 := constantI S_ 1 1#1
  let main_v22 : IVec S_ 1 := (fun x v => Host.reduce IntOp.andi x v reducesTo_S7x7_S_d0_1 h_S_) main_v21 main_c_7
  let main_v23 : IVec S_ 1 := andi main_v18 main_v22
  let main_v24 : FVec F S7x7 .f32 := Host.absf main_arg5
  let main_cst_8 : FVec F S_ .f32 := constant S_ .f32 0x7F800000#32
  let main_v25 : FVec F S7x7 .f32 := broadcastInDim S7x7 ![] bcast_S_S7x7 main_cst_8
  let main_v26 : IVec S7x7 1 := cmpf .olt main_v24 main_v25
  let main_c_9 : IVec S_ 1 := constantI S_ 1 1#1
  let main_v27 : IVec S_ 1 := (fun x v => Host.reduce IntOp.andi x v reducesTo_S7x7_S_d0_1 h_S_) main_v26 main_c_9
  let main_v28 : IVec S_ 1 := andi main_v23 main_v27
  let main_v29 : FVec F S7x7 .f32 := Host.absf main_arg6
  let main_cst_10 : FVec F S_ .f32 := constant S_ .f32 0x7F800000#32
  let main_v30 : FVec F S7x7 .f32 := broadcastInDim S7x7 ![] bcast_S_S7x7 main_cst_10
  let main_v31 : IVec S7x7 1 := cmpf .olt main_v29 main_v30
  let main_c_11 : IVec S_ 1 := constantI S_ 1 1#1
  let main_v32 : IVec S_ 1 := (fun x v => Host.reduce IntOp.andi x v reducesTo_S7x7_S_d0_1 h_S_) main_v31 main_c_11
  let main_v33 : IVec S_ 1 := andi main_v28 main_v32
  main_v33

def fn {F : FTy → Type} [FloatOps F] (main_arg0 : FVec F S7x7 .f32) (main_arg1 : FVec F S7x7 .f32) (main_arg2 : FVec F S7x7 .f32) (main_arg3 : FVec F S7x7 .f32) (main_arg4 : FVec F S7x7 .f32) (main_arg5 : FVec F S7x7 .f32) (main_arg6 : FVec F S7x7 .f32) : IVec S_ 1 :=
  let main_v0 : FVec F S7x7 .f32 := Host.absf main_arg0
  let main_cst : FVec F S_ .f32 := constant S_ .f32 0x7F800000#32
  let main_v1 : FVec F S7x7 .f32 := broadcastInDim S7x7 ![] bcast_S_S7x7 main_cst
  let main_v2 : IVec S7x7 1 := cmpf .olt main_v0 main_v1
  let main_c : IVec S_ 1 := constantI S_ 1 1#1
  let main_v3 : IVec S_ 1 := (fun x v => Host.reduce IntOp.andi x v reducesTo_S7x7_S_d0_1 h_S_) main_v2 main_c
  let main_v4 : FVec F S7x7 .f32 := Host.absf main_arg1
  let main_cst_0 : FVec F S_ .f32 := constant S_ .f32 0x7F800000#32
  let main_v5 : FVec F S7x7 .f32 := broadcastInDim S7x7 ![] bcast_S_S7x7 main_cst_0
  let main_v6 : IVec S7x7 1 := cmpf .olt main_v4 main_v5
  let main_c_1 : IVec S_ 1 := constantI S_ 1 1#1
  let main_v7 : IVec S_ 1 := (fun x v => Host.reduce IntOp.andi x v reducesTo_S7x7_S_d0_1 h_S_) main_v6 main_c_1
  let main_v8 : IVec S_ 1 := andi main_v3 main_v7
  let main_v9 : FVec F S7x7 .f32 := Host.absf main_arg2
  let main_cst_2 : FVec F S_ .f32 := constant S_ .f32 0x7F800000#32
  let main_v10 : FVec F S7x7 .f32 := broadcastInDim S7x7 ![] bcast_S_S7x7 main_cst_2
  let main_v11 : IVec S7x7 1 := cmpf .olt main_v9 main_v10
  let main_c_3 : IVec S_ 1 := constantI S_ 1 1#1
  let main_v12 : IVec S_ 1 := (fun x v => Host.reduce IntOp.andi x v reducesTo_S7x7_S_d0_1 h_S_) main_v11 main_c_3
  let main_v13 : IVec S_ 1 := andi main_v8 main_v12
  let main_v14 : FVec F S7x7 .f32 := Host.absf main_arg3
  let main_cst_4 : FVec F S_ .f32 := constant S_ .f32 0x7F800000#32
  let main_v15 : FVec F S7x7 .f32 := broadcastInDim S7x7 ![] bcast_S_S7x7 main_cst_4
  let main_v16 : IVec S7x7 1 := cmpf .olt main_v14 main_v15
  fn_part1 (F := F) main_arg4 main_arg5 main_arg6 main_v13 main_v16
-- ==== Kernel.lean ====
abbrev S7x7 : Shape := ⟨2, ![7, 7]⟩
abbrev S1x7x7 : Shape := ⟨3, ![1, 7, 7]⟩
abbrev S7x7x7 : Shape := ⟨3, ![7, 7, 7]⟩
abbrev S7x28 : Shape := ⟨2, ![7, 28]⟩
abbrev S28x7 : Shape := ⟨2, ![28, 7]⟩

abbrev nBuf : Space → Nat
  | .hbm => 16
  | .vmem => 2
  | .smem => 0
  | _ => 0

abbrev bufTy : (tb : Table) → Fin (tcTables nBuf tb) → BufTy
  | .hbm, ⟨0, _⟩ => ⟨S7x7, .f32⟩
  | .hbm, ⟨1, _⟩ => ⟨S7x7, .f32⟩
  | .hbm, ⟨2, _⟩ => ⟨S7x7, .f32⟩
  | .hbm, ⟨3, _⟩ => ⟨S7x7, .f32⟩
  | .hbm, ⟨4, _⟩ => ⟨S7x7, .f32⟩
  | .hbm, ⟨5, _⟩ => ⟨S7x7, .f32⟩
  | .hbm, ⟨6, _⟩ => ⟨S7x7, .f32⟩
  | .hbm, ⟨7, _⟩ => ⟨S1x7x7, .f32⟩
  | .hbm, ⟨8, _⟩ => ⟨S1x7x7, .f32⟩
  | .hbm, ⟨9, _⟩ => ⟨S1x7x7, .f32⟩
  | .hbm, ⟨10, _⟩ => ⟨S1x7x7, .f32⟩
  | .hbm, ⟨11, _⟩ => ⟨S1x7x7, .f32⟩
  | .hbm, ⟨12, _⟩ => ⟨S1x7x7, .f32⟩
  | .hbm, ⟨13, _⟩ => ⟨S1x7x7, .f32⟩
  | .hbm, ⟨14, _⟩ => ⟨S7x7x7, .f32⟩
  | .hbm, ⟨15, _⟩ => ⟨S7x7, .f32⟩
  | .local _ .vmem, ⟨0, _⟩ => ⟨S7x7x7, .f32⟩
  | .local _ .vmem, ⟨1, _⟩ => ⟨S7x7, .f32⟩
  | _, _ => ⟨S7x7, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S7x7x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  bcast_S7x7_S1x7x7_1_2 : S7x7.BroadcastsInDim S1x7x7 (![1, 2] : Fin 2 → Fin S1x7x7.rank)
  concatenates_S1x7x7_S1x7x7_S1x7x7_S1x7x7_S1x7x7_S1x7x7_S1x7x7_S7x7x7_d0 : Shape.Concatenates [S1x7x7, S1x7x7, S1x7x7, S1x7x7, S1x7x7, S1x7x7, S1x7x7] S7x7x7 0
  inb_S7x7x7_S1x7x7_0_0_0 : ∀ a, (![0, 0, 0] : Fin 3 → Nat) a + S1x7x7.size a ≤ S7x7x7.size a
  h_S1x7x7 : 0 < S1x7x7.numel
  shapeCasts_S1x7x7_S7x7 : S1x7x7.ShapeCasts S7x7
  inb_S7x7x7_S1x7x7_1_0_0 : ∀ a, (![1, 0, 0] : Fin 3 → Nat) a + S1x7x7.size a ≤ S7x7x7.size a
  inb_S7x7x7_S1x7x7_2_0_0 : ∀ a, (![2, 0, 0] : Fin 3 → Nat) a + S1x7x7.size a ≤ S7x7x7.size a
  inb_S7x7x7_S1x7x7_3_0_0 : ∀ a, (![3, 0, 0] : Fin 3 → Nat) a + S1x7x7.size a ≤ S7x7x7.size a
  inb_S7x7x7_S1x7x7_4_0_0 : ∀ a, (![4, 0, 0] : Fin 3 → Nat) a + S1x7x7.size a ≤ S7x7x7.size a
  inb_S7x7x7_S1x7x7_5_0_0 : ∀ a, (![5, 0, 0] : Fin 3 → Nat) a + S1x7x7.size a ≤ S7x7x7.size a
  inb_S7x7x7_S1x7x7_6_0_0 : ∀ a, (![6, 0, 0] : Fin 3 → Nat) a + S1x7x7.size a ≤ S7x7x7.size a
  iota_S7x7_d0_w32 : S7x7.Iotas .tc 32 [0]
  iota_S7x7_d1_w32 : S7x7.Iotas .tc 32 [1]
  concatenates_S7x7_S7x7_S7x7_S7x7_S7x28_d1 : Shape.Concatenates [S7x7, S7x7, S7x7, S7x7] S7x28 1
  concatenates_S7x7_S7x7_S7x7_S7x7_S28x7_d0 : Shape.Concatenates [S7x7, S7x7, S7x7, S7x7] S28x7 0
  inb_S7x7_S7x7_0_0 : ∀ a, (![0, 0] : Fin 2 → Nat) a + S7x7.size a ≤ S7x7.size a
  h_S7x7 : 0 < S7x7.numel
  dot_S7x28_S28x7_S7x7_1_0_0_1_n_n_wf : DotDims.WF S7x28 S28x7 S7x7 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S7x7x7.size a ≤ S7x7x7.size a
  hwx0_0 : ∀ i : grid0.Coords, EltTy.bits .f32 = 32 ∨ (Rect.block (s := S7x7x7) S7x7x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x7.size a ≤ S7x7.size a
  hwx0_1 : ∀ i : grid0.Coords, EltTy.bits .f32 = 32 ∨ (Rect.block (s := S7x7) S7x7.size (cc0_transform_1 i) (hinb0_1 i)).WholeWords (EltTy.packing .f32)

variable [Facts₀]

def dot_S7x28_S28x7_S7x7_1_0_0_1_n_n : DotDims S7x28 S28x7 S7x7 where
  lhsContracting := [1]
  rhsContracting := [0]
  lhsNonContracting := [0]
  rhsNonContracting := [1]
  lhsBatch := []
  rhsBatch := []
  wf := dot_S7x28_S28x7_S7x7_1_0_0_1_n_n_wf

abbrev win0_0 : Pipeline.Window sig grid0 :=
  Pipeline.Window.ofSpec (Memref.whole main_v7) S7x7x7.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S7x7.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S7x7 : Shape := ⟨2, ![7, 7]⟩
abbrev S_ : Shape := ⟨0, ![]⟩
abbrev S1 : Shape := ⟨1, ![1]⟩
abbrev S2 : Shape := ⟨1, ![2]⟩

abbrev nBuf : Space → Nat
  | .hbm => 23
  | .vmem => 0
  | .smem => 0
  | _ => 0

abbrev bufTy : (tb : Table) → Fin (tcTables nBuf tb) → BufTy
  | .hbm, ⟨0, _⟩ => ⟨S7x7, .f32⟩
  | .hbm, ⟨1, _⟩ => ⟨S7x7, .f32⟩
  | .hbm, ⟨2, _⟩ => ⟨S7x7, .f32⟩
  | .hbm, ⟨3, _⟩ => ⟨S7x7, .f32⟩
  | .hbm, ⟨4, _⟩ => ⟨S7x7, .f32⟩
  | .hbm, ⟨5, _⟩ => ⟨S7x7, .f32⟩
  | .hbm, ⟨6, _⟩ => ⟨S7x7, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S_, .f32⟩
  | .hbm, ⟨13, _⟩ => ⟨S7x7, .f32⟩
  | .hbm, ⟨14, _⟩ => ⟨S7x7, .f32⟩
  | .hbm, ⟨15, _⟩ => ⟨S7x7, .f32⟩
  | .hbm, ⟨16, _⟩ => ⟨S7x7, .f32⟩
  | .hbm, ⟨17, _⟩ => ⟨S7x7, .f32⟩
  | .hbm, ⟨18, _⟩ => ⟨S7x7, .f32⟩
  | .hbm, ⟨19, _⟩ => ⟨S7x7, .f32⟩
  | .hbm, ⟨20, _⟩ => ⟨S7x7, .f32⟩
  | .hbm, ⟨21, _⟩ => ⟨S7x7, .f32⟩
  | .hbm, ⟨22, _⟩ => ⟨S7x7, .f32⟩
  | _, _ => ⟨S7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S1_S1_S2_d0 : Shape.Concatenates [S1, S1] S2 0
  scatter_S7x7_S2_S__n_01_01_0_wf : ScatterDims.WF S7x7 S2 S_ [] [0, 1] [0, 1] 0
  dot_S7x7_S7x7_S7x7_1_0_0_1_n_n_wf : DotDims.WF S7x7 S7x7 S7x7 [1] [0] [0] [1] [] []

variable [Facts₀]

def scatter_S7x7_S2_S__n_01_01_0 : ScatterDims S7x7 S2 S_ where
  updateWindowDims := []
  insertedWindowDims := [0, 1]
  scatterDimsToOperandDims := [0, 1]
  indexVectorDim := 0
  wf := scatter_S7x7_S2_S__n_01_01_0_wf
def dot_S7x7_S7x7_S7x7_1_0_0_1_n_n : DotDims S7x7 S7x7 S7x7 where
  lhsContracting := [1]
  rhsContracting := [0]
  lhsNonContracting := [0]
  rhsNonContracting := [1]
  lhsBatch := []
  rhsBatch := []
  wf := dot_S7x7_S7x7_S7x7_1_0_0_1_n_n_wf

class Facts : Prop extends Facts₀ where

variable [Facts]
-- ==== Proof.BitsFrame.lean ====
/-
  The frame of `Kernel`'s @main, at any float instance `F`.

  @main first lays the seven 7×7 argument matrices side by side as the seven slabs of one 7×7×7 array (seven
  rank-raising broadcasts, then one concatenation along the new leading axis), and then enters its one region, whose grid
  has a single point. At that point the whole 7×7×7 array is the block of the input window and the whole 7×7 result is
  the block of the output window. The body reads the seven slabs of the input block, reads the output's buffer once
  (the value is unused), and overwrites the whole output buffer with one value computed from the seven slabs.

  Hence: none of the seven argument arrays is written by a host operation, none is an array of a window, and the body
  touches only the two staging buffers; so every argument array ends as it was launched. What the output's buffer holds
  after the body is named `outBlock` — the one store over the seven slab reads — so that a claim about the result
  can start from the same run (`run_main`).
-/
import proofs.«129792_j39676907882997_2_alg».proof.Proof.Gen.Kernel.Launch
import proofs.«129792_j39676907882997_2_alg».proof.Proof.Gen.Kernel.Skeleton
import proofs.«129792_j39676907882997_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What each buffer of core `c` holds when the region is entered: the launch contents pushed through the eight
    host operations (the seven slabs, then their concatenation). -/
abbrev V (c : Dev nD) (b : Ref sig .tc) : Buf (Elt F) ((c : Thread nD τ).loc b) :=
  StableHlo.after hostOps0 (fun b => m (c, b)) b

/-- None of the eight host operations allocates. -/
theorem hostOps0_fresh : (hostOps0 : List (HloOp τ sig (Elt F))).Forall fun op => op.fresh = ∅ := by
  simp only [List.Forall]; repeat' constructor

/-- @main is the eight host operations followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is the result of none of the eight host operations is found by the region as launched. -/
theorem V_unwritten (c : Dev nD) (r : Ref sig .tc)
    (h0 : r ≠ main_v0) (h1 : r ≠ main_v1) (h2 : r ≠ main_v2) (h3 : r ≠ main_v3) (h4 : r ≠ main_v4)
    (h5 : r ≠ main_v5) (h6 : r ≠ main_v6) (h7 : r ≠ main_v7) :
    V m c r = m ((c : Thread nD τ).loc r) :=
  StableHlo.after_of_forall_not_mem (b := Proc.devRef .tc r) _ _ (List.forall_iff_forall_mem.mp (by
    simp only [hostOps0, List.Forall, StableHlo.unary_writes, StableHlo.nary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7⟩))

theorem V_main_arg0 (c : Dev nD) : V m c main_arg0 = m ((c : Thread nD τ).loc main_arg0) :=
  V_unwritten m c _ (by decide) (by decide) (by decide) (by decide) (by decide) (by decide) (by decide) (by decide)
theorem V_main_arg1 (c : Dev nD) : V m c main_arg1 = m ((c : Thread nD τ).loc main_arg1) :=
  V_unwritten m c _ (by decide) (by decide) (by decide) (by decide) (by decide) (by decide) (by decide) (by decide)
theorem V_main_arg2 (c : Dev nD) : V m c main_arg2 = m ((c : Thread nD τ).loc main_arg2) :=
  V_unwritten m c _ (by decide) (by decide) (by decide) (by decide) (by decide) (by decide) (by decide) (by decide)
theorem V_main_arg3 (c : Dev nD) : V m c main_arg3 = m ((c : Thread nD τ).loc main_arg3) :=
  V_unwritten m c _ (by decide) (by decide) (by decide) (by decide) (by decide) (by decide) (by decide) (by decide)
theorem V_main_arg4 (c : Dev nD) : V m c main_arg4 = m ((c : Thread nD τ).loc main_arg4) :=
  V_unwritten m c _ (by decide) (by decide) (by decide) (by decide) (by decide) (by decide) (by decide) (by decide)
theorem V_main_arg5 (c : Dev nD) : V m c main_arg5 = m ((c : Thread nD τ).loc main_arg5) :=
  V_unwritten m c _ (by decide) (by decide) (by decide) (by decide) (by decide) (by decide) (by decide) (by decide)
theorem V_main_arg6 (c : Dev nD) : V m c main_arg6 = m ((c : Thread nD τ).loc main_arg6) :=
  V_unwritten m c _ (by decide) (by decide) (by decide) (by decide) (by decide) (by decide) (by decide) (by decide)

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The input window's staging buffer holds its block when the body is called, for any proof data over the arrays
    `V` whose body leaves that buffer as it found it. -/
theorem before_in_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-! ## The frame claim's post from a run to the library's frame post -/

/-- The seven argument arrays are arrays of no window, so the library's post has each at its region-entry contents,
    which are the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c)⟩) h

/-! ## The body's accesses -/

/-- Slab `k` of the 7×7×7 input block, `k = 0, …, 6`. -/
abbrev slab0 : Rect S7x7x7 := Rect.unit (s := S7x7x7) ![0, 0, 0] S1x7x7.size inb_S7x7x7_S1x7x7_0_0_0
abbrev slab1 : Rect S7x7x7 := Rect.unit (s := S7x7x7) ![1, 0, 0] S1x7x7.size inb_S7x7x7_S1x7x7_1_0_0
abbrev slab2 : Rect S7x7x7 := Rect.unit (s := S7x7x7) ![2, 0, 0] S1x7x7.size inb_S7x7x7_S1x7x7_2_0_0
abbrev slab3 : Rect S7x7x7 := Rect.unit (s := S7x7x7) ![3, 0, 0] S1x7x7.size inb_S7x7x7_S1x7x7_3_0_0
abbrev slab4 : Rect S7x7x7 := Rect.unit (s := S7x7x7) ![4, 0, 0] S1x7x7.size inb_S7x7x7_S1x7x7_4_0_0
abbrev slab5 : Rect S7x7x7 := Rect.unit (s := S7x7x7) ![5, 0, 0] S1x7x7.size inb_S7x7x7_S1x7x7_5_0_0
abbrev slab6 : Rect S7x7x7 := Rect.unit (s := S7x7x7) ![6, 0, 0] S1x7x7.size inb_S7x7x7_S1x7x7_6_0_0
/-- The whole 7×7 output buffer. -/
abbrev whole7x7 : Rect S7x7 := Rect.unit (s := S7x7) ![0, 0] S7x7.size inb_S7x7_S7x7_0_0

/-- What the output's staging buffer holds after the body, from the input block: the one store, whose value is the
    body's arithmetic over the seven slabs. -/
def outBlock (x : Vec F S7x7x7 .f32) : Vec F S7x7 .f32 :=
  View.canon [⟨whole7x7, k0_pay1 (View.ld x slab0) (View.ld x slab1) (View.ld x slab2) (View.ld x slab3)
    (View.ld x slab4) (View.ld x slab5) (View.ld x slab6)⟩]

/-- The one store covers the buffer. -/
theorem outCover (p0 : Vec F S7x7 .f32) (y : S7x7.Idx) :
    ∃ pc ∈ ([⟨whole7x7, p0⟩] : List (View.Piece (Elt F) S7x7 .f32)), y ∈ pc.1.set :=
  View.cover_of_tiled [⟨whole7x7, p0⟩] S7x7.size (by rfl) y

/-! ## The body's triple -/

set_option maxHeartbeats 1000000 in
/-- The body, on whole staging memrefs with the input's at contents `x` and the output's at anything, runs to the
    continuation holding the input's as it was and the output's at `outBlock x`. -/
theorem sound_kernel (c : Dev nD) (E : Set ℕ) (i : grid0.Coords)
    (arg1 : Memref sig .tc .vmem S7x7x7 .f32) (harg1 : arg1.IsWhole)
    (arg2 : Memref sig .tc .vmem S7x7 .f32) (harg2 : arg2.IsWhole)
    (x : Vec F S7x7x7 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (outBlock x)) -∗ K ⟨⟩))
      ⊢ wp frame (wpE (defs₀ (F := F)) Variants.none c none) E (cc0__kernel i arg1 harg1 arg2 harg2) K := by
  simp only [cc0__kernel_eq_skeleton]; unfold cc0__kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (outCover _)

/-! ## The pipeline's proof data -/

/-- On core `c`: the arrays as the region finds them; after the body the input's buffer still at its block and the
    output's at `outBlock` of that block; the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by
  dsimp only [dats]

theorem before_in (c : Dev nD) (t : Fin cfg0.N) (d) : (dats m 0 c).before 0 t d = iblk m c 0 t :=
  before_in_of m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the output array at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The seven argument arrays end as launched. -/
theorem frame_holds : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Hand

end
-- ==== Proof.IdealFrame.lean ====
/-
  The frame of `KernelIdeal`'s @main, at any float instance `F`.

  @main first lays the seven 7×7 argument matrices side by side as the seven slabs of one 7×7×7 array (seven
  rank-raising broadcasts, then one concatenation along the new leading axis), and then enters its one region, whose grid
  has a single point. At that point the whole 7×7×7 array is the block of the input window and the whole 7×7 result is
  the block of the output window. The body reads the seven slabs of the input block, reads the output's buffer once
  (the value is unused), and overwrites the whole output buffer with one value computed from the seven slabs.

  Hence: none of the seven argument arrays is written by a host operation, none is an array of a window, and the body
  touches only the two staging buffers; so every argument array ends as it was launched. What the output's buffer holds
  after the body is named `outBlock` — the one store over the seven slab reads — so that a claim about the result
  can start from the same run (`run_main`).
-/
import proofs.«129792_j39676907882997_2_alg».proof.Proof.Gen.KernelIdeal.Launch
import proofs.«129792_j39676907882997_2_alg».proof.Proof.Gen.KernelIdeal.Skeleton
import proofs.«129792_j39676907882997_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What each buffer of core `c` holds when the region is entered: the launch contents pushed through the eight
    host operations (the seven slabs, then their concatenation). -/
abbrev V (c : Dev nD) (b : Ref sig .tc) : Buf (Elt F) ((c : Thread nD τ).loc b) :=
  StableHlo.after hostOps0 (fun b => m (c, b)) b

/-- None of the eight host operations allocates. -/
theorem hostOps0_fresh : (hostOps0 : List (HloOp τ sig (Elt F))).Forall fun op => op.fresh = ∅ := by
  simp only [List.Forall]; repeat' constructor

/-- @main is the eight host operations followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is the result of none of the eight host operations is found by the region as launched. -/
theorem V_unwritten (c : Dev nD) (r : Ref sig .tc)
    (h0 : r ≠ main_v0) (h1 : r ≠ main_v1) (h2 : r ≠ main_v2) (h3 : r ≠ main_v3) (h4 : r ≠ main_v4)
    (h5 : r ≠ main_v5) (h6 : r ≠ main_v6) (h7 : r ≠ main_v7) :
    V m c r = m ((c : Thread nD τ).loc r) :=
  StableHlo.after_of_forall_not_mem (b := Proc.devRef .tc r) _ _ (List.forall_iff_forall_mem.mp (by
    simp only [hostOps0, List.Forall, StableHlo.unary_writes, StableHlo.nary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7⟩))

theorem V_main_arg0 (c : Dev nD) : V m c main_arg0 = m ((c : Thread nD τ).loc main_arg0) :=
  V_unwritten m c _ (by decide) (by decide) (by decide) (by decide) (by decide) (by decide) (by decide) (by decide)
theorem V_main_arg1 (c : Dev nD) : V m c main_arg1 = m ((c : Thread nD τ).loc main_arg1) :=
  V_unwritten m c _ (by decide) (by decide) (by decide) (by decide) (by decide) (by decide) (by decide) (by decide)
theorem V_main_arg2 (c : Dev nD) : V m c main_arg2 = m ((c : Thread nD τ).loc main_arg2) :=
  V_unwritten m c _ (by decide) (by decide) (by decide) (by decide) (by decide) (by decide) (by decide) (by decide)
theorem V_main_arg3 (c : Dev nD) : V m c main_arg3 = m ((c : Thread nD τ).loc main_arg3) :=
  V_unwritten m c _ (by decide) (by decide) (by decide) (by decide) (by decide) (by decide) (by decide) (by decide)
theorem V_main_arg4 (c : Dev nD) : V m c main_arg4 = m ((c : Thread nD τ).loc main_arg4) :=
  V_unwritten m c _ (by decide) (by decide) (by decide) (by decide) (by decide) (by decide) (by decide) (by decide)
theorem V_main_arg5 (c : Dev nD) : V m c main_arg5 = m ((c : Thread nD τ).loc main_arg5) :=
  V_unwritten m c _ (by decide) (by decide) (by decide) (by decide) (by decide) (by decide) (by decide) (by decide)
theorem V_main_arg6 (c : Dev nD) : V m c main_arg6 = m ((c : Thread nD τ).loc main_arg6) :=
  V_unwritten m c _ (by decide) (by decide) (by decide) (by decide) (by decide) (by decide) (by decide) (by decide)

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The input window's staging buffer holds its block when the body is called, for any proof data over the arrays
    `V` whose body leaves that buffer as it found it. -/
theorem before_in_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-! ## The frame claim's post from a run to the library's frame post -/

/-- The seven argument arrays are arrays of no window, so the library's post has each at its region-entry contents,
    which are the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c)⟩) h

/-! ## The body's accesses -/

/-- Slab `k` of the 7×7×7 input block, `k = 0, …, 6`. -/
abbrev slab0 : Rect S7x7x7 := Rect.unit (s := S7x7x7) ![0, 0, 0] S1x7x7.size inb_S7x7x7_S1x7x7_0_0_0
abbrev slab1 : Rect S7x7x7 := Rect.unit (s := S7x7x7) ![1, 0, 0] S1x7x7.size inb_S7x7x7_S1x7x7_1_0_0
abbrev slab2 : Rect S7x7x7 := Rect.unit (s := S7x7x7) ![2, 0, 0] S1x7x7.size inb_S7x7x7_S1x7x7_2_0_0
abbrev slab3 : Rect S7x7x7 := Rect.unit (s := S7x7x7) ![3, 0, 0] S1x7x7.size inb_S7x7x7_S1x7x7_3_0_0
abbrev slab4 : Rect S7x7x7 := Rect.unit (s := S7x7x7) ![4, 0, 0] S1x7x7.size inb_S7x7x7_S1x7x7_4_0_0
abbrev slab5 : Rect S7x7x7 := Rect.unit (s := S7x7x7) ![5, 0, 0] S1x7x7.size inb_S7x7x7_S1x7x7_5_0_0
abbrev slab6 : Rect S7x7x7 := Rect.unit (s := S7x7x7) ![6, 0, 0] S1x7x7.size inb_S7x7x7_S1x7x7_6_0_0
/-- The whole 7×7 output buffer. -/
abbrev whole7x7 : Rect S7x7 := Rect.unit (s := S7x7) ![0, 0] S7x7.size inb_S7x7_S7x7_0_0

/-- What the output's staging buffer holds after the body, from the input block: the one store, whose value is the
    body's arithmetic over the seven slabs. -/
def outBlock (x : Vec F S7x7x7 .f32) : Vec F S7x7 .f32 :=
  View.canon [⟨whole7x7, k0_pay1 (View.ld x slab0) (View.ld x slab1) (View.ld x slab2) (View.ld x slab3)
    (View.ld x slab4) (View.ld x slab5) (View.ld x slab6)⟩]

/-- The one store covers the buffer. -/
theorem outCover (p0 : Vec F S7x7 .f32) (y : S7x7.Idx) :
    ∃ pc ∈ ([⟨whole7x7, p0⟩] : List (View.Piece (Elt F) S7x7 .f32)), y ∈ pc.1.set :=
  View.cover_of_tiled [⟨whole7x7, p0⟩] S7x7.size (by rfl) y

/-! ## The body's triple -/

set_option maxHeartbeats 1000000 in
/-- The body, on whole staging memrefs with the input's at contents `x` and the output's at anything, runs to the
    continuation holding the input's as it was and the output's at `outBlock x`. -/
theorem sound_kernel (c : Dev nD) (E : Set ℕ) (i : grid0.Coords)
    (arg1 : Memref sig .tc .vmem S7x7x7 .f32) (harg1 : arg1.IsWhole)
    (arg2 : Memref sig .tc .vmem S7x7 .f32) (harg2 : arg2.IsWhole)
    (x : Vec F S7x7x7 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (outBlock x)) -∗ K ⟨⟩))
      ⊢ wp frame (wpE (defs₀ (F := F)) Variants.none c none) E (cc0__kernel i arg1 harg1 arg2 harg2) K := by
  simp only [cc0__kernel_eq_skeleton]; unfold cc0__kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (outCover _)

/-! ## The pipeline's proof data -/

/-- On core `c`: the arrays as the region finds them; after the body the input's buffer still at its block and the
    output's at `outBlock` of that block; the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by
  dsimp only [dats]

theorem before_in (c : Dev nD) (t : Fin cfg0.N) (d) : (dats m 0 c).before 0 t d = iblk m c 0 t :=
  before_in_of m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the output array at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The seven argument arrays end as launched. -/
theorem frame_holds : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Hand

end
-- ==== Proof.FiveProducts.lean ====
/-
  The mathematics of the claim, with no program in sight.

  Seven 7×7 matrices a0, …, a6 of extended reals and a constant c are given. Write a0' for a0 with its entry (1, 1)
  replaced by c, and X·Y for the matrix product, (X·Y)(p, q) = Σ_k X(p, k) · Y(k, q).

  * One side forms five products and adds them up:   ((((a4·a5 + a1·a0') + a2·a3) + a6·a3) + a5·a2).
  * The other lays four 7×7 matrices side by side as the columns of a 7×28 matrix [a1 | a2 + a6 | a4 | a5], four more
    on top of each other as the rows of a 28×7 matrix [a0' ; a3 ; a5 ; a2], and multiplies the two ONCE. A sum over the
    28 contracted positions is the sum over the four 7-wide bands of the sums inside each band (`sum_bands`), so the
    one product is   a1·a0' + (a2 + a6)·a3 + a4·a5 + a5·a2.

  The two agree once (a2 + a6)·a3 = a2·a3 + a6·a3, which is distributivity entry by entry. On the extended reals
  (x + y)·z = x·z + y·z can fail at infinities, and holds when x, y and z are real: this is where the finiteness of the
  inputs a2, a6 and a3 is used. Everything else is commutativity and associativity of addition.
-/
import Idealize.ShloMosaic.PureOps.Ideal
import Idealize.ShloMosaic.Lib.ValueIdx

noncomputable section

namespace Cert.FiveProducts

open Idealize.ShloMosaic Idealize.ShloMosaic.ValueIdx

/-- A 7×7 matrix of extended reals, indexed as the programs index it. -/
abbrev Mat : Type := (⟨2, ![7, 7]⟩ : Shape).Idx → EReal

/-- Every entry is a real number. -/
def IsReal (a : Mat) : Prop := ∀ i, ∃ r : ℝ, a i = (r : EReal)

/-- `a` with its entry (1, 1) replaced by `c`. -/
def patch (c : EReal) (a : Mat) : Mat := fun i => if i = ix2 1 1 then c else a i

/-- Entry (p, q) of the matrix product. -/
def prod (a b : Mat) (p q : Fin 7) : EReal := ∑ k : Fin 7, a (ix2 p k) * b (ix2 k q)

/-- The entrywise sum. -/
def plus (a b : Mat) : Mat := fun i => a i + b i

/-- Entry (p, q) of the five products, added in the order ((((a4·a5 + a1·a0') + a2·a3) + a6·a3) + a5·a2). -/
def fiveAt (c : EReal) (a0 a1 a2 a3 a4 a5 a6 : Mat) (p q : Fin 7) : EReal :=
  prod a4 a5 p q + prod a1 (patch c a0) p q + prod a2 a3 p q + prod a6 a3 p q + prod a5 a2 p q

/-- Entry (p, q) of the one banded product: a1·a0' + (a2 + a6)·a3 + a4·a5 + a5·a2. -/
def bandedAt (c : EReal) (a0 a1 a2 a3 a4 a5 a6 : Mat) (p q : Fin 7) : EReal :=
  prod a1 (patch c a0) p q + prod (plus a2 a6) a3 p q + prod a4 a5 p q + prod a5 a2 p q

/-- The five products as a matrix. -/
def fiveProducts (c : EReal) (a0 a1 a2 a3 a4 a5 a6 : Mat) : Mat := fun i => fiveAt c a0 a1 a2 a3 a4 a5 a6 (i 0) (i 1)

/-- A sum over 28 positions, each position's term given by its band `K / 7` and its place `K % 7` in the band, is
    the sum of the four bands' sums. -/
theorem sum_bands {M : Type} [AddCommMonoid M] (T : Fin 4 → Fin 7 → M) :
    ∑ K : Fin 28, T ⟨K.val / 7, by have := K.isLt; omega⟩ ⟨K.val % 7, Nat.mod_lt _ (by decide)⟩
      = (∑ k : Fin 7, T 0 k) + (∑ k : Fin 7, T 1 k) + (∑ k : Fin 7, T 2 k) + ∑ k : Fin 7, T 3 k := by
  have h := Equiv.sum_comp (finProdFinEquiv (m := 4) (n := 7)).symm (fun x : Fin 4 × Fin 7 => T x.1 x.2)
  rw [Fintype.sum_prod_type, Fin.sum_univ_four] at h
  exact h

/-- Distributivity on the extended reals at three real numbers. -/
theorem add_mul_real {x y z : EReal} (hx : ∃ r : ℝ, x = (r : EReal)) (hy : ∃ r : ℝ, y = (r : EReal))
    (hz : ∃ r : ℝ, z = (r : EReal)) : (x + y) * z = x * z + y * z := by
  obtain ⟨a, rfl⟩ := hx
  obtain ⟨b, rfl⟩ := hy
  obtain ⟨c, rfl⟩ := hz
  rw [← EReal.coe_add, ← EReal.coe_mul, ← EReal.coe_mul, ← EReal.coe_mul, ← EReal.coe_add, add_mul]

/-- (a + b)·d = a·d + b·d for matrices of real entries. -/
theorem prod_plus {a b d : Mat} (ha : IsReal a) (hb : IsReal b) (hd : IsReal d) (p q : Fin 7) :
    prod (plus a b) d p q = prod a d p q + prod b d p q := by
  unfold prod plus
  rw [← Finset.sum_add_distrib]
  exact Finset.sum_congr rfl fun k _ => add_mul_real (ha _) (hb _) (hd _)

/-- The one banded product is the five products added up, when a2, a6 and a3 have real entries. -/
theorem bandedAt_eq (c : EReal) (a0 a1 a2 a3 a4 a5 a6 : Mat) (h2 : IsReal a2) (h6 : IsReal a6) (h3 : IsReal a3)
    (p q : Fin 7) : bandedAt c a0 a1 a2 a3 a4 a5 a6 p q = fiveAt c a0 a1 a2 a3 a4 a5 a6 p q := by
  unfold bandedAt fiveAt
  rw [prod_plus h2 h6 h3]
  abel

end Cert.FiveProducts

end
-- ==== Proof.BandedValue.lean ====
/-
  The body's arithmetic, read at one entry (p, q) of the 7×7 result, over ANY contents x of the 7×7×7 input block.

  Slab k of the block, with its leading unit axis dropped, is the matrix  j ↦ x(k, j0, j1)  (`slab_cast`).
  The mask "row = 1 and column = 1", built from the two coordinate arrays, selects the constant at entry (1, 1) and the
  matrix elsewhere: that is the matrix with entry (1, 1) replaced (`mask_select`; the 49 truth values are computed).
  The 7×28 left operand is four matrices side by side and the 28×7 right operand four matrices on top of each other, so
  column K of the first and row K of the second both come from band K / 7 at place K % 7; the product into a zero
  accumulator is then the sum of the four bands' 7×7 products (`banded_matmul`).
  Together: the stored value at (p, q) is the banded product of the seven slabs (`outBlock_apply`).
-/
import proofs.«129792_j39676907882997_2_alg».proof.Proof.IdealFrame
import proofs.«129792_j39676907882997_2_alg».proof.Proof.FiveProducts
import Idealize.ShloMosaic.Lib.Pipeline.Value
import Idealize.ShloMosaic.Lib.ValueIdx
import Idealize.ShloMosaic.PureOps.Ideal.Laws

noncomputable section

namespace Cert.KernelIdeal.Banded

open Cert.KernelIdeal Cert.KernelIdeal.Gen Cert.KernelIdeal.Hand
open Idealize.ShloMosaic Idealize.ShloMosaic.ValueIdx Cert.FiveProducts

/-- The constant the body selects at entry (1, 1). -/
abbrev c11 : EReal := Ideal.ofBits .f32 0x40490FDA#32

/-- Slab `k` of a 7×7×7 array, as a matrix. -/
def slabOf (x : Vec Ideal S7x7x7 .f32) (k : Fin 7) : Mat := fun j => x (ix3 k (j 0) (j 1))

theorem slab_cast (x : Vec Ideal S7x7x7 .f32) (k : Nat) (hk : k < 7)
    (inb : ∀ a, (![k, 0, 0] : Fin 3 → Nat) a + S1x7x7.size a ≤ S7x7x7.size a) (h : S1x7x7.ShapeCasts S7x7) :
    (shapeCast S7x7 (View.ld (Val := Elt Ideal) (e' := .f32) x (Rect.unit (s := S7x7x7) ![k, 0, 0] S1x7x7.size inb)) h : S7x7.Idx → EReal)
      = slabOf x ⟨k, hk⟩ := by
  funext j
  refine (shapeCast_dropUnit_apply ![7, 7] _ h j).trans ?_
  show x _ = x _
  congr 1
  funext a
  apply Fin.ext
  match a with
  | ⟨0, _⟩ => show k + 1 * 0 = k; omega
  | ⟨1, _⟩ => show 0 + 1 * (j 0).val = (j 0).val; omega
  | ⟨2, _⟩ => show 0 + 1 * (j 1).val = (j 1).val; omega

theorem mask_bit : ∀ p q : Fin 7,
    IntOp.andi (IntOp.cmpi .eq (BitVec.ofNat 32 p.val) 1#32) (IntOp.cmpi .eq (BitVec.ofNat 32 q.val) 1#32)
      = if p = 1 ∧ q = 1 then 1#1 else 0#1 := by decide

theorem mask_select (c : EReal) (a : Mat) :
    select (andi (cmpi .eq (iota .tc S7x7 32 [0] iota_S7x7_d0_w32) (broadcast S7x7 1#32))
        (cmpi .eq (iota .tc S7x7 32 [1] iota_S7x7_d1_w32) (broadcast S7x7 1#32)))
      (broadcast S7x7 c) a = patch c a := by
  funext j
  obtain ⟨p, q, rfl⟩ : ∃ (p q : Fin 7), j = ix2 p q := ⟨j 0, j 1, eq_ix2 j⟩
  show Scalar.select (IntOp.andi (IntOp.cmpi .eq (iota .tc S7x7 32 [0] iota_S7x7_d0_w32 (ix2 p q)) 1#32)
      (IntOp.cmpi .eq (iota .tc S7x7 32 [1] iota_S7x7_d1_w32 (ix2 p q)) 1#32)) c (a (ix2 p q)) = _
  rw [iota_single_apply, iota_single_apply]
  show Scalar.select (IntOp.andi (IntOp.cmpi .eq (BitVec.ofNat 32 p.val) 1#32) (IntOp.cmpi .eq (BitVec.ofNat 32 q.val) 1#32)) c (a (ix2 p q)) = _
  rw [mask_bit]
  unfold patch
  by_cases h : p = 1 ∧ q = 1
  · obtain ⟨rfl, rfl⟩ := h
    rw [if_pos ⟨rfl, rfl⟩, if_pos rfl]; exact select_one _ _
  · rw [if_neg h, if_neg (fun e => h ⟨congrArg (fun f => f 0) e, congrArg (fun f => f 1) e⟩)]; exact select_zero _ _

theorem lhs_row (i : S7x7.Idx) (κ : dot_S7x28_S28x7_S7x7_1_0_0_1_n_n.contr.Idx) : (dot_S7x28_S28x7_S7x7_1_0_0_1_n_n.lhsIdx i κ 0).val = (i 0).val := by
  unfold DotDims.lhsIdx
  rw [dif_neg (show ¬(0 : Fin S7x28.rank) ∈ dot_S7x28_S28x7_S7x7_1_0_0_1_n_n.lhsBatch by decide),
    dif_pos (show (0 : Fin S7x28.rank) ∈ dot_S7x28_S28x7_S7x7_1_0_0_1_n_n.lhsNonContracting by decide)]
  rfl
theorem lhs_col (i : S7x7.Idx) (κ : dot_S7x28_S28x7_S7x7_1_0_0_1_n_n.contr.Idx) : (dot_S7x28_S28x7_S7x7_1_0_0_1_n_n.lhsIdx i κ 1).val = (κ ⟨0, by decide⟩).val :=
  dot_S7x28_S28x7_S7x7_1_0_0_1_n_n.lhsIdx_val_of_single rfl i κ
theorem rhs_row (i : S7x7.Idx) (κ : dot_S7x28_S28x7_S7x7_1_0_0_1_n_n.contr.Idx) : (dot_S7x28_S28x7_S7x7_1_0_0_1_n_n.rhsIdx i κ 0).val = (κ ⟨0, by decide⟩).val :=
  dot_S7x28_S28x7_S7x7_1_0_0_1_n_n.rhsIdx_val_of_single rfl i κ
theorem rhs_col (i : S7x7.Idx) (κ : dot_S7x28_S28x7_S7x7_1_0_0_1_n_n.contr.Idx) : (dot_S7x28_S28x7_S7x7_1_0_0_1_n_n.rhsIdx i κ 1).val = (i 1).val := by
  unfold DotDims.rhsIdx
  rw [dif_neg (show ¬(1 : Fin S28x7.rank) ∈ dot_S7x28_S28x7_S7x7_1_0_0_1_n_n.rhsBatch by decide),
    dif_pos (show (1 : Fin S28x7.rank) ∈ dot_S7x28_S28x7_S7x7_1_0_0_1_n_n.rhsNonContracting by decide)]
  rfl

theorem banded_matmul (L0 L1 L2 L3 R0 R1 R2 R3 : FVec Ideal S7x7 .f32) (p q : Fin 7) :
    matmul dot_S7x28_S28x7_S7x7_1_0_0_1_n_n none
      (concatenate S7x28 1 [⟨S7x7, L0⟩, ⟨S7x7, L1⟩, ⟨S7x7, L2⟩, ⟨S7x7, L3⟩] concatenates_S7x7_S7x7_S7x7_S7x7_S7x28_d1)
      (concatenate S28x7 0 [⟨S7x7, R0⟩, ⟨S7x7, R1⟩, ⟨S7x7, R2⟩, ⟨S7x7, R3⟩] concatenates_S7x7_S7x7_S7x7_S7x7_S28x7_d0)
      (constant S7x7 .f32 0x00000000#32) (ix2 p q)
    = prod L0 R0 p q + prod L1 R1 p q + prod L2 R2 p q + prod L3 R3 p q := by
  simp only [matmul]
  rw [Ideal.matmul_constant_zero_apply, ← Equiv.sum_comp (contrEquiv1 dot_S7x28_S28x7_S7x7_1_0_0_1_n_n 28 rfl rfl).symm]
  have el : ∀ K : Fin 28, dot_S7x28_S28x7_S7x7_1_0_0_1_n_n.lhsIdx (ix2 p q)
      ((contrEquiv1 dot_S7x28_S28x7_S7x7_1_0_0_1_n_n 28 rfl rfl).symm K) = ix2 p K := fun K => funext fun a => Fin.ext (by
    have hk := contrEquiv1_symm_val dot_S7x28_S28x7_S7x7_1_0_0_1_n_n 28 rfl rfl K
    match a with
    | ⟨0, _⟩ => exact lhs_row _ _
    | ⟨1, _⟩ => exact (lhs_col _ _).trans hk)
  have er : ∀ K : Fin 28, dot_S7x28_S28x7_S7x7_1_0_0_1_n_n.rhsIdx (ix2 p q)
      ((contrEquiv1 dot_S7x28_S28x7_S7x7_1_0_0_1_n_n 28 rfl rfl).symm K) = ix2 K q := fun K => funext fun a => Fin.ext (by
    have hk := contrEquiv1_symm_val dot_S7x28_S28x7_S7x7_1_0_0_1_n_n 28 rfl rfl K
    match a with
    | ⟨0, _⟩ => exact (rhs_row _ _).trans hk
    | ⟨1, _⟩ => exact rhs_col _ _)
  simp only [el, er]
  have hL : ∀ K : Fin 28, concatenate S7x28 1 [⟨S7x7, L0⟩, ⟨S7x7, L1⟩, ⟨S7x7, L2⟩, ⟨S7x7, L3⟩] concatenates_S7x7_S7x7_S7x7_S7x7_S7x28_d1 (ix2 p K)
      = (![L0, L1, L2, L3] ⟨K.val / 7, by have := K.isLt; omega⟩) (ix2 p ⟨K.val % 7, Nat.mod_lt _ (by decide)⟩) := fun K =>
    concatenate_ofFn_apply (t := S7x28) (s₁ := S7x7) 1 ![L0, L1, L2, L3] concatenates_S7x7_S7x7_S7x7_S7x7_S7x28_d1 rfl 7 rfl
      (ix2 p K) ⟨K.val / 7, by have := K.isLt; omega⟩ rfl (ix2 p ⟨K.val % 7, Nat.mod_lt _ (by decide)⟩) rfl
      (fun b hb => by match b with | ⟨0, _⟩ => rfl | ⟨1, _⟩ => exact absurd rfl hb)
  have hR : ∀ K : Fin 28, concatenate S28x7 0 [⟨S7x7, R0⟩, ⟨S7x7, R1⟩, ⟨S7x7, R2⟩, ⟨S7x7, R3⟩] concatenates_S7x7_S7x7_S7x7_S7x7_S28x7_d0 (ix2 K q)
      = (![R0, R1, R2, R3] ⟨K.val / 7, by have := K.isLt; omega⟩) (ix2 ⟨K.val % 7, Nat.mod_lt _ (by decide)⟩ q) := fun K =>
    concatenate_ofFn_apply (t := S28x7) (s₁ := S7x7) 0 ![R0, R1, R2, R3] concatenates_S7x7_S7x7_S7x7_S7x7_S28x7_d0 rfl 7 rfl
      (ix2 K q) ⟨K.val / 7, by have := K.isLt; omega⟩ rfl (ix2 ⟨K.val % 7, Nat.mod_lt _ (by decide)⟩ q) rfl
      (fun b hb => by match b with | ⟨0, _⟩ => exact absurd rfl hb | ⟨1, _⟩ => rfl)
  simp only [hL, hR]
  exact sum_bands (fun (b : Fin 4) (k : Fin 7) => (![L0, L1, L2, L3] b) (ix2 p k) * (![R0, R1, R2, R3] b) (ix2 k q))

theorem zero_offsets : (![0, 0] : Fin 2 → Nat) = fun _ => 0 := funext fun a => by fin_cases a <;> rfl

/-- What the body stores, at entry (p, q): the banded product of the block's seven slabs. -/
theorem outBlock_apply (x : Vec Ideal S7x7x7 .f32) (p q : Fin 7) :
    outBlock x (ix2 p q) = bandedAt c11 (slabOf x 0) (slabOf x 1) (slabOf x 2) (slabOf x 3) (slabOf x 4) (slabOf x 5)
      (slabOf x 6) p q := by
  unfold outBlock
  rw [View.canon_unit_zero zero_offsets]
  unfold k0_pay1
  dsimp only
  rw [slab_cast x 0 (by decide), slab_cast x 1 (by decide), slab_cast x 2 (by decide), slab_cast x 3 (by decide),
    slab_cast x 4 (by decide), slab_cast x 5 (by decide), slab_cast x 6 (by decide), mask_select]
  refine (banded_matmul _ _ _ _ _ _ _ _ p q).trans ?_
  rfl

/-- The same at any index of the 7×7 result. -/
theorem outBlock_at (x : Vec Ideal S7x7x7 .f32) (j : S7x7.Idx) :
    outBlock x j = bandedAt c11 (slabOf x 0) (slabOf x 1) (slabOf x 2) (slabOf x 3) (slabOf x 4) (slabOf x 5)
      (slabOf x 6) (j 0) (j 1) := by
  obtain ⟨p, q, rfl⟩ : ∃ (p q : Fin 7), j = ix2 p q := ⟨j 0, j 1, eq_ix2 j⟩
  exact outBlock_apply x p q

end Cert.KernelIdeal.Banded

end
-- ==== Proof.KernelValue.lean ====
/-
  What the idealized kernel's result array holds after the run, as one function of the seven argument matrices.

  * The array the region stages, as @main builds it, is the seven arguments stacked: entry (k, p, q) of the 7×7×7 array
    is entry (p, q) of argument k (each argument is given a leading unit axis, and the seven are joined along it).
  * The grid has one point; there the input window's block is the whole stacked array and the output window's block is
    the whole result (every block index is 0). So slab k of the input block is argument k, and what the point writes back
    — the body's stored value — is, entry by entry, the banded product of the seven arguments.
  * That one block covers the result array, so after the run the array IS that function (`result`).
-/
import proofs.«129792_j39676907882997_2_alg».proof.Proof.BandedValue
import Idealize.ShloMosaic.Lib.StableHlo.Run

noncomputable section

namespace Cert.KernelIdeal.KValue

open Cert.KernelIdeal Cert.KernelIdeal.Gen Cert.KernelIdeal.Hand Cert.KernelIdeal.Banded
open Idealize.ShloMosaic Idealize.ShloMosaic.TcCoe Idealize.SL.Sem Idealize.ShloMosaic.StableHlo
open Idealize.ShloMosaic.ValueIdx Cert.FiveProducts
open Idealize.ShloMosaic.Pipeline (Dat)

variable (m : (ℓ : Loc nD τ sig) → Buf (Elt Ideal) ℓ) (ρ : Dev nD → PrngReg)

/-- The seven argument arrays of core `c`, as matrices. -/
abbrev arg0 (c : Dev nD) : Mat := m ((c : Thread nD τ).loc main_arg0)
abbrev arg1 (c : Dev nD) : Mat := m ((c : Thread nD τ).loc main_arg1)
abbrev arg2 (c : Dev nD) : Mat := m ((c : Thread nD τ).loc main_arg2)
abbrev arg3 (c : Dev nD) : Mat := m ((c : Thread nD τ).loc main_arg3)
abbrev arg4 (c : Dev nD) : Mat := m ((c : Thread nD τ).loc main_arg4)
abbrev arg5 (c : Dev nD) : Mat := m ((c : Thread nD τ).loc main_arg5)
abbrev arg6 (c : Dev nD) : Mat := m ((c : Thread nD τ).loc main_arg6)

/-! ## The stacked array -/

/-- The staged array as the region finds it: the concatenation, along a new leading axis, of the seven arguments each
    given that axis with extent one. -/
theorem stacked (c : Dev nD) :
    (V m c main_v7 : S7x7x7.Idx → EReal) = concatenate S7x7x7 0
      [⟨S1x7x7, broadcastInDim S1x7x7 ![1, 2] bcast_S7x7_S1x7x7_1_2 (arg0 m c)⟩,
       ⟨S1x7x7, broadcastInDim S1x7x7 ![1, 2] bcast_S7x7_S1x7x7_1_2 (arg1 m c)⟩,
       ⟨S1x7x7, broadcastInDim S1x7x7 ![1, 2] bcast_S7x7_S1x7x7_1_2 (arg2 m c)⟩,
       ⟨S1x7x7, broadcastInDim S1x7x7 ![1, 2] bcast_S7x7_S1x7x7_1_2 (arg3 m c)⟩,
       ⟨S1x7x7, broadcastInDim S1x7x7 ![1, 2] bcast_S7x7_S1x7x7_1_2 (arg4 m c)⟩,
       ⟨S1x7x7, broadcastInDim S1x7x7 ![1, 2] bcast_S7x7_S1x7x7_1_2 (arg5 m c)⟩,
       ⟨S1x7x7, broadcastInDim S1x7x7 ![1, 2] bcast_S7x7_S1x7x7_1_2 (arg6 m c)⟩]
      concatenates_S1x7x7_S1x7x7_S1x7x7_S1x7x7_S1x7x7_S1x7x7_S1x7x7_S7x7x7_d0 := by
  dsimp only [V, hostOps0]; after_results; rfl

/-- Entry (k, p, q) of the stacked array is entry (p, q) of argument `k`. -/
theorem stacked_at (c : Dev nD) (k p q : Fin 7) :
    (V m c main_v7 : S7x7x7.Idx → EReal) (ix3 k p q) = (![arg0 m c, arg1 m c, arg2 m c, arg3 m c, arg4 m c, arg5 m c, arg6 m c] k) (ix2 p q) := by
  rw [stacked]
  refine (concatenate_ofFn_unit_apply (t := S7x7x7) (s₁ := S1x7x7) 0
    (fun n : Fin 7 => broadcastInDim S1x7x7 ![1, 2] bcast_S7x7_S1x7x7_1_2 (![arg0 m c, arg1 m c, arg2 m c, arg3 m c, arg4 m c, arg5 m c, arg6 m c] n))
    concatenates_S1x7x7_S1x7x7_S1x7x7_S1x7x7_S1x7x7_S1x7x7_S1x7x7_S7x7x7_d0 rfl rfl (ix3 k p q) k rfl (ix3 0 p q)
    (fun b hb => by match b with | ⟨0, _⟩ => exact absurd rfl hb | ⟨1, _⟩ => rfl | ⟨2, _⟩ => rfl)).trans ?_
  exact broadcastInDim_apply _ _ _ (ix3 0 p q) (ix2 p q) (fun a => by match a with | ⟨0, _⟩ => rfl | ⟨1, _⟩ => rfl)

/-! ## The one grid point -/

/-- Every block index of both windows is 0 at every point of the grid. -/
theorem index_zero : ∀ t : Fin cfg0.N, win0_0.index t (0 : Fin 3) = 0 ∧ win0_0.index t (1 : Fin 3) = 0
    ∧ win0_0.index t (2 : Fin 3) = 0 ∧ win0_1.index t (0 : Fin 2) = 0 ∧ win0_1.index t (1 : Fin 2) = 0 :=
  (by decide +kernel : ∀ t : Fin grid0.N, _)

/-- The input block is the whole stacked array. -/
theorem iblk_at (c : Dev nD) (t : Fin cfg0.N) (k p q : Fin 7) :
    (iblk m c 0 t : S7x7x7.Idx → EReal) (ix3 k p q) = (V m c main_v7 : S7x7x7.Idx → EReal) (ix3 k p q) := by
  show V m c main_v7 (((cfg0.win 0).blk t).view.emb (ix3 k p q)) = V m c main_v7 (ix3 k p q)
  congr 1
  obtain ⟨e0, e1, e2, -, -⟩ := index_zero t
  funext a; apply Fin.ext
  match a with
  | ⟨0, _⟩ => show win0_0.index t (0 : Fin 3) * 7 + 1 * k.val = k.val; omega
  | ⟨1, _⟩ => show win0_0.index t (1 : Fin 3) * 7 + 1 * p.val = p.val; omega
  | ⟨2, _⟩ => show win0_0.index t (2 : Fin 3) * 7 + 1 * q.val = q.val; omega

/-- Slab `k` of the input block is argument `k`. -/
theorem slab_iblk (c : Dev nD) (t : Fin cfg0.N) (k : Fin 7) :
    slabOf (iblk m c 0 t) k = ![arg0 m c, arg1 m c, arg2 m c, arg3 m c, arg4 m c, arg5 m c, arg6 m c] k := by
  funext j
  exact (iblk_at m c t k (j 0) (j 1)).trans ((stacked_at m c k (j 0) (j 1)).trans
    (congrArg (![arg0 m c, arg1 m c, arg2 m c, arg3 m c, arg4 m c, arg5 m c, arg6 m c] k) (eq_ix2 j).symm))

/-! ## The result array -/

/-- The banded product of the seven arguments. -/
def result (c : Dev nD) : Mat := fun i =>
  bandedAt c11 (arg0 m c) (arg1 m c) (arg2 m c) (arg3 m c) (arg4 m c) (arg5 m c) (arg6 m c) (i 0) (i 1)

/-- What the point writes back is the block of `result` it names. -/
theorem flushed_eq (c : Dev nD) (t : Fin cfg0.N) :
    (dats m 0 c).flushed 1 t = ((cfg0.win 1).blk t).view.read (Elt Ideal) (result m c) := by
  show (cfg0.win 1).cut (grid0.coords t) ((dats m 0 c).after 1 t) = _
  rw [after_out]
  funext j
  show outBlock (iblk m c 0 t) j = result m c (((cfg0.win 1).blk t).view.emb j)
  have he : ((cfg0.win 1).blk t).view.emb j = j := by
    obtain ⟨-, -, -, e3, e4⟩ := index_zero t
    funext a; apply Fin.ext
    match a with
    | ⟨0, _⟩ => show win0_1.index t (0 : Fin 2) * 7 + 1 * (j 0).val = (j 0).val; omega
    | ⟨1, _⟩ => show win0_1.index t (1 : Fin 2) * 7 + 1 * (j 1).val = (j 1).val; omega
  rw [he]
  refine (outBlock_at (iblk m c 0 t) j).trans ?_
  rw [slab_iblk m c t 0, slab_iblk m c t 1, slab_iblk m c t 2, slab_iblk m c t 3, slab_iblk m c t 4,
    slab_iblk m c t 5, slab_iblk m c t 6]
  rfl

/-- The one point's block is the whole result array. -/
theorem cover (i : S7x7.Idx) :
    ∃ t : Fin cfg0.N, (cfg0.win 1).flush t = true ∧ i ∈ ((cfg0.win 1).blk t).view.set := by
  refine ⟨t0_0, flush0_1 t0_0, ?_⟩
  show i ∈ ((View.whole main_v8).slice (win0_1.rect t0_0)).set
  rw [View.set_slice_whole, Rect.mem_set_unit]
  obtain ⟨-, -, -, e3, e4⟩ := index_zero t0_0
  have h0 : (i 0).val < 7 := (i 0).isLt
  have h1 : (i 1).val < 7 := (i 1).isLt
  intro a
  match a with
  | ⟨0, _⟩ =>
    show win0_1.index t0_0 (0 : Fin 2) * 7 ≤ (i 0).val ∧ (i 0).val < win0_1.index t0_0 (0 : Fin 2) * 7 + 7; omega
  | ⟨1, _⟩ =>
    show win0_1.index t0_0 (1 : Fin 2) * 7 ≤ (i 1).val ∧ (i 1).val < win0_1.index t0_0 (1 : Fin 2) * 7 + 7; omega

/-- After the run the result array is the banded product of the arguments. -/
theorem final (c : Dev nD) : (dats m 0 c).arrAt 1 cfg0.N = result m c :=
  (dats m 0 c).arrAt_eq_of_cover 1 (result m c) (fun t _ => flushed_eq m c t) cover

/-! ## The run, read -/

/-- Every weakly fair execution terminates with the result array at the banded product of the arguments and the
    arguments unchanged. -/
theorem run_value : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).1 1).trans (final m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c)⟩) (run_main m ρ)

end Cert.KernelIdeal.KValue

end
-- ==== Proof.RefValue.lean ====
/-
  The reference's result, as a function of its seven argument matrices, is the five products added up.

  The reference first replaces entry (1, 1) of its first argument by a constant (a scatter of ONE scalar update at ONE
  index vector, which the two integer constants 1, 1 make up: the index is closed, so where the update lands is found by
  evaluation), then forms five 7×7 matrix products — each, on the extended reals, the plain sum over the contracted
  index of the products of entries — and adds them in the order ((((P6 + P4) + P5) + P7) + P8).
-/
import proofs.«129792_j39676907882997_2_alg».proof.Proof.Gen.ReferenceIdeal.Read
import proofs.«129792_j39676907882997_2_alg».proof.Proof.FiveProducts

noncomputable section

namespace Cert.ReferenceIdeal.RefValue

open Cert.ReferenceIdeal Cert.ReferenceIdeal.Gen Cert.ReferenceIdeal.Read
open Idealize.ShloMosaic Idealize.ShloMosaic.ValueIdx Cert.FiveProducts

/-- The constant the reference writes at entry (1, 1). -/
abbrev c11 : EReal := Ideal.ofBits .f32 0x40490FDA#32

/-- The one update of the scatter lands at index (1, 1): the start index is read off the constant index vector [1, 1]
    and lies inside the 7×7 operand. -/
theorem scatter_target :
    scatter_S7x7_S2_S__n_01_01_0.resultIdx? (S_.rowMajor.symm ⟨0, by decide⟩) (val_main_v2 (F := Ideal))
      = some (ix2 1 1) := by
  decide

/-- The scatter's result is its operand with entry (1, 1) replaced by the constant. -/
theorem scatter_eq_patch (x0 : (⟨S7x7, .f32⟩ : BufTy).Contents (Elt Ideal)) :
    val_main_v3 (F := Ideal) x0 = patch c11 x0 := by
  unfold val_main_v3 Host.scatter
  have h1 : List.finRange S_.numel = [⟨0, by decide⟩] := by decide
  rw [h1]
  simp only [List.foldl_cons, List.foldl_nil]
  rw [scatter_target]
  rfl

/-! The operand indices of each product, in coordinates: row `i 0` of the left factor meets column `i 1` of the right
one at the contracted position `k`. -/

theorem lidx_v4 (i : S7x7.Idx) (k : Fin 7) : lidx_main_v4 i k = ix2 (i 0) k :=
  funext fun a => by match a with | ⟨0, _⟩ => rfl | ⟨1, _⟩ => rfl
theorem ridx_v4 (i : S7x7.Idx) (k : Fin 7) : ridx_main_v4 i k = ix2 k (i 1) :=
  funext fun a => by match a with | ⟨0, _⟩ => rfl | ⟨1, _⟩ => rfl
theorem lidx_v5 (i : S7x7.Idx) (k : Fin 7) : lidx_main_v5 i k = ix2 (i 0) k :=
  funext fun a => by match a with | ⟨0, _⟩ => rfl | ⟨1, _⟩ => rfl
theorem ridx_v5 (i : S7x7.Idx) (k : Fin 7) : ridx_main_v5 i k = ix2 k (i 1) :=
  funext fun a => by match a with | ⟨0, _⟩ => rfl | ⟨1, _⟩ => rfl
theorem lidx_v6 (i : S7x7.Idx) (k : Fin 7) : lidx_main_v6 i k = ix2 (i 0) k :=
  funext fun a => by match a with | ⟨0, _⟩ => rfl | ⟨1, _⟩ => rfl
theorem ridx_v6 (i : S7x7.Idx) (k : Fin 7) : ridx_main_v6 i k = ix2 k (i 1) :=
  funext fun a => by match a with | ⟨0, _⟩ => rfl | ⟨1, _⟩ => rfl
theorem lidx_v7 (i : S7x7.Idx) (k : Fin 7) : lidx_main_v7 i k = ix2 (i 0) k :=
  funext fun a => by match a with | ⟨0, _⟩ => rfl | ⟨1, _⟩ => rfl
theorem ridx_v7 (i : S7x7.Idx) (k : Fin 7) : ridx_main_v7 i k = ix2 k (i 1) :=
  funext fun a => by match a with | ⟨0, _⟩ => rfl | ⟨1, _⟩ => rfl
theorem lidx_v8 (i : S7x7.Idx) (k : Fin 7) : lidx_main_v8 i k = ix2 (i 0) k :=
  funext fun a => by match a with | ⟨0, _⟩ => rfl | ⟨1, _⟩ => rfl
theorem ridx_v8 (i : S7x7.Idx) (k : Fin 7) : ridx_main_v8 i k = ix2 k (i 1) :=
  funext fun a => by match a with | ⟨0, _⟩ => rfl | ⟨1, _⟩ => rfl

/-- The reference's result term is the five products of its arguments, added up. -/
theorem result_eq (x0 x1 x2 x3 x4 x5 x6 : (⟨S7x7, .f32⟩ : BufTy).Contents (Elt Ideal)) :
    val_main_v12 (F := Ideal) x0 x1 x2 x3 x4 x5 x6 = fiveProducts c11 x0 x1 x2 x3 x4 x5 x6 := by
  funext i
  rw [val_main_v12_apply, val_main_v11_apply, val_main_v10_apply, val_main_v9_apply, val_main_v6_apply,
    val_main_v4_apply, val_main_v5_apply, val_main_v7_apply, val_main_v8_apply, scatter_eq_patch]
  simp only [lidx_v4, ridx_v4, lidx_v5, ridx_v5, lidx_v6, ridx_v6, lidx_v7, ridx_v7, lidx_v8, ridx_v8]
  rfl

end Cert.ReferenceIdeal.RefValue

end
-- ==== Proof.Finite.lean ====
/-
  The precondition says every entry of every input is a real number.

  The printed predicate is the conjunction, input by input, of "every entry x satisfies |x| < +inf", where |x| is
  max x (-x), the bound is the word of +inf, and "every entry" is a reduction by `and` over both axes from the constant
  true. On the extended reals |x| < +inf excludes exactly x = +inf and x = -inf, so x is (the image of) a real number.
  The conjunction nests to the left, input 6 outermost; each conjunct is split off in turn.
-/
import proofs.«129792_j39676907882997_2_alg».proof.Proof.Gen.Pre_finite_inputs
import proofs.«129792_j39676907882997_2_alg».proof.Proof.FiveProducts
import Idealize.ShloMosaic.Lib.ReduceAll
import Idealize.ShloMosaic.Lib.ValueIdx
import Idealize.ShloMosaic.PureOps.Ideal.Laws

noncomputable section

namespace Cert.Pre_finite_inputs.Decode

open Cert.Pre_finite_inputs Cert.Pre_finite_inputs.Gen Idealize.ShloMosaic Idealize.ShloMosaic.ValueIdx Cert.FiveProducts

/-- A rank-zero array has one index. -/
instance : Subsingleton S_.Idx := ⟨fun a b => funext fun d => d.elim0⟩

/-- The bound's word denotes +inf. -/
theorem inf_word : Ideal.ofBits .f32 0x7F800000#32 = ⊤ := by simp [Ideal.ofBits, Ideal.ieee]

/-- An extended real whose absolute value is below +inf is a real number. -/
theorem real_of_abs_lt_inf (x : EReal) (h : Ideal.cmp .olt (max x (-x)) (Ideal.ofBits .f32 0x7F800000#32) = 1#1) :
    ∃ r : ℝ, x = (r : EReal) := by
  rw [inf_word] at h
  unfold Ideal.cmp at h
  induction x using EReal.rec with
  | bot => simp at h
  | coe r => exact ⟨r, rfl⟩
  | top => simp at h

/-- A conjunction of two truth values that is true has both true. -/
theorem and_split {a b : IVec S_ 1} (h : andi a b ix0 = 1#1) : a ix0 = 1#1 ∧ b ix0 = 1#1 := IntOp.andi_eq_one.1 h

/-- One input's conjunct: "all entries have absolute value below +inf" gives a matrix of real entries. -/
theorem isReal_of_all (x : FVec Ideal S7x7 .f32)
    (h : Host.reduce IntOp.andi
        (cmpf .olt (Host.absf x) (broadcastInDim S7x7 ![] bcast_S_S7x7 (constant S_ .f32 0x7F800000#32)))
        (constantI S_ 1 1#1) reducesTo_S7x7_S_d0_1 h_S_ ix0 = 1#1) : IsReal x := fun i =>
  real_of_abs_lt_inf (x i) (Host.reduce_andi_all _ _ _ _ ix0 h i)

/-- Under the precondition the third, fourth and seventh inputs (the ones the distributive law is applied to) have real
    entries. -/
theorem isReal_of_pre (x0 x1 x2 x3 x4 x5 x6 : FVec Ideal S7x7 .f32)
    (h : fn (F := Ideal) x0 x1 x2 x3 x4 x5 x6 = fun _ => 1#1) : IsReal x2 ∧ IsReal x3 ∧ IsReal x6 := by
  have h0 := congrFun h ix0
  dsimp only [fn, fn_part1] at h0
  obtain ⟨h28, h32⟩ := and_split h0
  obtain ⟨h23, h27⟩ := and_split h28
  obtain ⟨h18, h22⟩ := and_split h23
  obtain ⟨h13, h17⟩ := and_split h18
  obtain ⟨h8, h12⟩ := and_split h13
  exact ⟨isReal_of_all x2 h12, isReal_of_all x3 h17, isReal_of_all x6 h32⟩

end Cert.Pre_finite_inputs.Decode

end
-- ==== Proof.lean ====
/-
  The kernel multiplies once where the reference multiplies five times.

  With a0, …, a6 the seven 7×7 inputs, c the constant both programs write at entry (1, 1) of a0 (the same word in both),
  and a0' the patched matrix, the reference computes  a4·a5 + a1·a0' + a2·a3 + a6·a3 + a5·a2.  The kernel stacks the
  inputs into one array, and in its single grid point forms  [a1 | a2 + a6 | a4 | a5] · [a0' ; a3 ; a5 ; a2],  one
  product over 28 contracted positions, which is the sum of its four 7-wide bands:
  a1·a0' + (a2 + a6)·a3 + a4·a5 + a5·a2.  On the extended reals the two agree by distributivity at real numbers — the
  precondition makes a2, a6 and a3 real — and by commutativity and associativity of addition.

  Frames: each program runs to the end with its arguments unchanged — the kernel's two readings by the frame run of its
  one region after the stacking operations (no argument is written by a host operation or staged by a window), the
  reference by its run as a sequence of host operations. The idealization rewrote nothing, so `preserves` is trivial.
-/
import proofs.«129792_j39676907882997_2_alg».proof.Defs
import proofs.«129792_j39676907882997_2_alg».proof.Proof.Gen.Kernel
import proofs.«129792_j39676907882997_2_alg».proof.Proof.Gen.KernelIdeal
import proofs.«129792_j39676907882997_2_alg».proof.Proof.Gen.ReferenceIdeal
import proofs.«129792_j39676907882997_2_alg».proof.Proof.Gen.Pre_finite_inputs
import proofs.«129792_j39676907882997_2_alg».proof.Proof.BitsFrame
import proofs.«129792_j39676907882997_2_alg».proof.Proof.IdealFrame
import proofs.«129792_j39676907882997_2_alg».proof.Proof.KernelValue
import proofs.«129792_j39676907882997_2_alg».proof.Proof.RefValue
import proofs.«129792_j39676907882997_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame_holds (F := Bits) m ρ

theorem frame_kernelIdeal : Cert.frame_KernelIdeal := fun m ρ _ => Cert.KernelIdeal.Hand.frame_holds (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the five products of the (agreeing) arguments: the kernel's run ends at the
    banded product, which is the five products because a2, a6 and a3 are real under the precondition; the reference's
    run ends at the five products as computed. -/
theorem algebraic : Cert.algebraic_KernelIdeal_ReferenceIdeal := by
  intro m ρ m' ρ' hpre hagree
  refine ⟨fun c => Cert.FiveProducts.fiveProducts Cert.KernelIdeal.Banded.c11
    (Cert.KernelIdeal.KValue.arg0 m c) (Cert.KernelIdeal.KValue.arg1 m c) (Cert.KernelIdeal.KValue.arg2 m c)
    (Cert.KernelIdeal.KValue.arg3 m c) (Cert.KernelIdeal.KValue.arg4 m c) (Cert.KernelIdeal.KValue.arg5 m c)
    (Cert.KernelIdeal.KValue.arg6 m c), ?_, ?_⟩
  · refine (θ_run Cert.KernelIdeal.defs _ _).mono (fun r h c => ⟨(h c).1.trans ?_, (h c).2⟩)
      (Cert.KernelIdeal.KValue.run_value m ρ)
    obtain ⟨h2, h3, h6⟩ := Cert.Pre_finite_inputs.Decode.isReal_of_pre _ _ _ _ _ _ _ (hpre c)
    funext i
    exact Cert.FiveProducts.bandedAt_eq _ _ _ _ _ _ _ _ h2 h6 h3 (i 0) (i 1)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.ReferenceIdeal.RefValue.result_eq,
      (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
